-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel

variable [Facts]

def fn {F : FTy → Type} [FloatOps F] (main_arg0 : FVec F S4x4096x256 .f32) (main_arg1 : FVec F S4x4096x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  main_v8
-- ==== Kernel.lean ====
abbrev S4x4096x256 : Shape := ⟨3, ![4, 4096, 256]⟩
abbrev S4x256x4096 : Shape := ⟨3, ![4, 256, 4096]⟩
abbrev S4x4096x4096 : Shape := ⟨3, ![4, 4096, 4096]⟩
abbrev S1x1024x256 : Shape := ⟨3, ![1, 1024, 256]⟩
abbrev S1x256x1024 : Shape := ⟨3, ![1, 256, 1024]⟩
abbrev S1x1024x1024 : Shape := ⟨3, ![1, 1024, 1024]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .bf16⟩
  | .hbm, ⟨3, _⟩ => ⟨S4x256x4096, .f32⟩
  | .hbm, ⟨4, _⟩ => ⟨S4x256x4096, .bf16⟩
  | .hbm, ⟨5, _⟩ => ⟨S4x4096x4096, .f32⟩
  | .local _ .vmem, ⟨0, _⟩ => ⟨S1x1024x256, .bf16⟩
  | .local _ .vmem, ⟨1, _⟩ => ⟨S1x1024x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x1024x1024, .f32⟩
  | .local _ .vmem, ⟨5, _⟩ => ⟨S1x1024x1024, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  bitsLt_bf16_f32 : FTy.bits .bf16 < FTy.bits .f32
  transposes_S4x4096x256_S4x256x4096_0_2_1 : S4x4096x256.Transposes [0, 2, 1] S4x256x4096
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S1024x256_S1024 : S1024x256.Reduces [1] S1024
  shapeCasts_S1024_S1024x1 : S1024.ShapeCasts S1024x1
  reduces_S256x1024_S1024 : S256x1024.Reduces [0] S1024
  shapeCasts_S1024_S1x1024 : S1024.ShapeCasts S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x4096x256.size a
  hwx0_0 : ∀ i : grid0.Coords, EltTy.bits .bf16 = 32 ∨ (Rect.block (s := S4x4096x256) S1x1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S4x256x4096.size a
  hwx0_1 : ∀ i : grid0.Coords, EltTy.bits .bf16 = 32 ∨ (Rect.block (s := S4x256x4096) S1x256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x4096x4096.size a
  hwx0_2 : ∀ i : grid0.Coords, EltTy.bits .f32 = 32 ∨ (Rect.block (s := S4x4096x4096) S1x1024x1024.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x256, .f32⟩
  | .hbm, ⟨7, _⟩ => ⟨S_, .f32⟩
  | .hbm, ⟨8, _⟩ => ⟨S4x4096, .f32⟩
  | .hbm, ⟨9, _⟩ => ⟨S4x1x4096, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  reducesTo_S4x4096x256_S4x4096_d2 : S4x4096x256.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S_S4x4096x4096 : S_.BroadcastsInDim S4x4096x4096 (![] : Fin 0 → Fin S4x4096x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  dot_S4x4096x256_S4x4096x256_S4x4096x4096_2_2_1_1_0_0_wf : DotDims.WF S4x4096x256 S4x4096x256 S4x4096x4096 [2] [2] [1] [1] [0] [0]

variable [Facts₀]

def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf

class Facts : Prop extends Facts₀ where

variable [Facts]
-- ==== Proof.Spec.lean ====
/-
  The function both programs compute, index by index on the extended reals.

  For two stacks of row vectors `x, y : [4, 4096, 256]` the result at `(b, n, p)` is
      exp (-(sqrt (min hi (max lo ((|x_{b,n}|^2 - 2 * <x_{b,n}, y_{b,p}>) + |y_{b,p}|^2)))))
  where `|v|^2` is the sum of the squares of the 256 entries of a row, `<v, w>` the sum of the 256 products, and
  `lo`, `hi`, `2` are the extended reals the three f32 patterns denote (the same patterns in both programs, so none of
  them is ever evaluated). The grouping `(a - 2 * c) + b` is the one both programs print.
-/
import Idealize.ShloMosaic.PureOps.Ideal
import Idealize.ShloMosaic.Lib.ValueIdx

noncomputable section

namespace Cert.RbfSpec

open Idealize.ShloMosaic Idealize.ShloMosaic.ValueIdx

/-- The stacked row vectors: 4 batches of 4096 rows of 256 entries. -/
abbrev Rows : Shape := ⟨3, ![4, 4096, 256]⟩
/-- The result: per batch a 4096 by 4096 table. -/
abbrev Table : Shape := ⟨3, ![4, 4096, 4096]⟩

/-- The squared Euclidean norm of row `n` of batch `b`: the sum of the squares of its 256 entries. -/
def rowSqNorm (x : Rows.Idx → EReal) (b : Fin 4) (n : Fin 4096) : EReal :=
  ∑ k : Fin 256, x (ix3 b n k) * x (ix3 b n k)

/-- The inner product of row `n` of `x` with row `p` of `y`, in batch `b`. -/
def rowDot (x y : Rows.Idx → EReal) (b : Fin 4) (n p : Fin 4096) : EReal :=
  ∑ k : Fin 256, x (ix3 b n k) * y (ix3 b p k)

/-- From the two squared norms and the inner product to the result's entry: the squared distance
    `(na - 2 * ip) + nb`, clamped between the two bounds, its square root negated and exponentiated. -/
def entry (na ip nb : EReal) : EReal :=
  Ideal.exp (-(Ideal.sqrt (min (Ideal.ofBits .f32 0x5368D4A5#32) (max (Ideal.ofBits .f32 0x2B8CBCCC#32)
    ((na - Ideal.ofBits .f32 0x40000000#32 * ip) + nb)))))

/-- The whole result as one function of the two argument arrays. -/
def G (x y : Rows.Idx → EReal) : Table.Idx → EReal := fun i =>
  entry (rowSqNorm x (i 0) (i 1)) (rowDot x y (i 0) (i 1) (i 2)) (rowSqNorm y (i 0) (i 2))

theorem G_apply (x y : Rows.Idx → EReal) (b : Fin 4) (n p : Fin 4096) :
    G x y (ix3 b n p) = entry (rowSqNorm x b n) (rowDot x y b n p) (rowSqNorm y b p) := rfl

end Cert.RbfSpec

end
-- ==== Proof.LibKeepdims.lean ====
/-
  Two layout facts every sum taken with its axis kept (a column of row sums) needs, read at an index given by
  coordinates: a vector of length `a` laid as a column `[a, 1]` reads its entry `i` at `(i, u)`, and a column `[a, 1]`
  broadcast over `b` columns reads, at `(p, c)`, the column's entry `p`. They sit beside the library's row forms
  (a vector laid as a row `[1, a]`; a row broadcast over many rows).
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.Tile.lean ====
/-
  One tile of the kernel, read at an index.

  The body loads a block `x0 : [1, 1024, 256]` of 1024 rows of the first array and a block `x1 : [1, 256, 1024]` of
  1024 columns of the second (already transposed), and stores a `[1, 1024, 1024]` tile. At the ideal values a change of
  float format is the identity, the product into a zero accumulator is the plain sum of products over the 256
  contracted entries, and a sum along one axis is the sum over that axis's coordinates. So the tile's entry `(u, p, q)` is
  `entry` (Spec.lean) of the squared norm of row `p` of `x0`, the inner product of row `p` of `x0` with column `q` of
  `x1`, and the squared norm of column `q` of `x1`. The body writes the negation as `0 - d`; on the extended reals that is `-d`.
-/
import proofs.«141961_j61667140436151_2_alg».proof.Proof.Gen.KernelIdeal.Skeleton
import proofs.«141961_j61667140436151_2_alg».proof.Proof.Spec
import proofs.«141961_j61667140436151_2_alg».proof.Proof.LibKeepdims
import Idealize.ShloMosaic.PureOps.Ideal.Laws
import Idealize.ShloMosaic.Lib.ValueLayout

noncomputable section

namespace Cert.KernelIdeal.Tile

open Cert.KernelIdeal Cert.KernelIdeal.Gen Idealize.ShloMosaic Idealize.ShloMosaic.ValueIdx Cert.RbfSpec

/-! ## The pointwise transcendental operations at an index -/

theorem exp_apply {s : Shape} {φ : FTy} (x : FVec Ideal s φ) (i : s.Idx) : exp x i = Ideal.exp (x i) := rfl
theorem sqrt_apply {s : Shape} {φ : FTy} (x : FVec Ideal s φ) (i : s.Idx) : sqrt x i = Ideal.sqrt (x i) := rfl

/-! ## The three sums -/

/-- The row sums of squares, kept as a column and broadcast over the tile: at `(p, q)` the sum over `k` of the
    square of the block's entry `(p, k)`. -/
theorem rowSq_apply (v : FVec Ideal S1024x256 .bf16) (hlt : FTy.bits .bf16 < FTy.bits .f32) (hr : S1024x256.Reduces [1] S1024)
    (hφ : FKind.Formats .f32) (hacc : (0x00000000#32 : BitVec 32) = 0x00000000#32)
    (hc : S1024.ShapeCasts S1024x1) (hb : S1024x1.Broadcasts S1024x1024) (p q : Fin 1024) :
    broadcastTo S1024x1024 (shapeCast S1024x1 (multiReduction .add [1] S1024 (mulf (extf .f32 v hlt) (extf .f32 v hlt)) 0x00000000#32 hr hφ hacc) hc) hb (ix2 p q)
      = ∑ k : Fin 256, v (ix2 p k) * v (ix2 p k) := by
  rw [broadcastTo_a1_ab_apply, shapeCast_a_a1_apply]
  refine (Ideal.multiReduction_add_single _ 0x00000000#32 hr hφ hacc (ix1 p)).trans ?_
  refine Finset.sum_congr rfl fun k _ => ?_
  have e : hr.lift (ix1 p) k = ix2 p k := funext fun a => Fin.ext (by match a with | ⟨0, _⟩ => rfl | ⟨1, _⟩ => rfl)
  rw [e]
  rfl

/-- The column sums of squares, kept as a row and broadcast over the tile: at `(p, q)` the sum over `k` of the
    square of the block's entry `(k, q)`. -/
theorem colSq_apply (v : FVec Ideal S256x1024 .bf16) (hlt : FTy.bits .bf16 < FTy.bits .f32) (hr : S256x1024.Reduces [0] S1024)
    (hφ : FKind.Formats .f32) (hacc : (0x00000000#32 : BitVec 32) = 0x00000000#32)
    (hc : S1024.ShapeCasts S1x1024) (hb : S1x1024.Broadcasts S1024x1024) (p q : Fin 1024) :
    broadcastTo S1024x1024 (shapeCast S1x1024 (multiReduction .add [0] S1024 (mulf (extf .f32 v hlt) (extf .f32 v hlt)) 0x00000000#32 hr hφ hacc) hc) hb (ix2 p q)
      = ∑ k : Fin 256, v (ix2 k q) * v (ix2 k q) := by
  rw [broadcastTo_1b_ab_apply, shapeCast_a_1a_apply]
  refine (Ideal.multiReduction_add_single _ 0x00000000#32 hr hφ hacc (ix1 q)).trans ?_
  refine Finset.sum_congr rfl fun k _ => ?_
  have e : hr.lift (ix1 q) k = ix2 k q := funext fun a => Fin.ext (by match a with | ⟨0, _⟩ => rfl | ⟨1, _⟩ => rfl)
  rw [e]
  rfl

theorem lhs_0 (i : S1024x1024.Idx) (r : dot_S1024x256_S256x1024_S1024x1024_1_0_0_1_n_n.contr.Idx) :
    (dot_S1024x256_S256x1024_S1024x1024_1_0_0_1_n_n.lhsIdx i r 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_1 (i : S1024x1024.Idx) (r : dot_S1024x256_S256x1024_S1024x1024_1_0_0_1_n_n.contr.Idx) :
    (dot_S1024x256_S256x1024_S1024x1024_1_0_0_1_n_n.lhsIdx i r 1).val = (r ⟨0, by decide⟩).val :=
  dot_S1024x256_S256x1024_S1024x1024_1_0_0_1_n_n.lhsIdx_val_of_single rfl i r
theorem rhs_0 (i : S1024x1024.Idx) (r : dot_S1024x256_S256x1024_S1024x1024_1_0_0_1_n_n.contr.Idx) :
    (dot_S1024x256_S256x1024_S1024x1024_1_0_0_1_n_n.rhsIdx i r 0).val = (r ⟨0, by decide⟩).val :=
  dot_S1024x256_S256x1024_S1024x1024_1_0_0_1_n_n.rhsIdx_val_of_single rfl i r
theorem rhs_1 (i : S1024x1024.Idx) (r : dot_S1024x256_S256x1024_S1024x1024_1_0_0_1_n_n.contr.Idx) :
    (dot_S1024x256_S256x1024_S1024x1024_1_0_0_1_n_n.rhsIdx i r 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product of the two blocks into a zero accumulator: at `(p, q)` the sum over `k` of the left block's
    entry `(p, k)` times the right block's entry `(k, q)`. -/
theorem mm_apply (v : FVec Ideal S1024x256 .bf16) (w : FVec Ideal S256x1024 .bf16) (p q : Fin 1024) :
    matmul dot_S1024x256_S256x1024_S1024x1024_1_0_0_1_n_n none v w (constant S1024x1024 .f32 0x00000000#32) (ix2 p q)
      = ∑ k : Fin 256, v (ix2 p k) * w (ix2 k q) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p q) ((ValueIdx.contrEquiv1 dot_S1024x256_S256x1024_S1024x1024_1_0_0_1_n_n 256 rfl rfl).symm k) = ix2 p k := funext fun a => Fin.ext (by
    match a with
    | ⟨0, _⟩ => exact lhs_0 _ _
    | ⟨1, _⟩ => exact (lhs_1 _ _).trans hk)
  have er : dot_S1024x256_S256x1024_S1024x1024_1_0_0_1_n_n.rhsIdx (ix2 p q) ((ValueIdx.contrEquiv1 dot_S1024x256_S256x1024_S1024x1024_1_0_0_1_n_n 256 rfl rfl).symm k) = ix2 k q := funext fun a => Fin.ext (by
    match a with
    | ⟨0, _⟩ => exact (rhs_0 _ _).trans hk
    | ⟨1, _⟩ => exact rhs_1 _ _)
  rw [el, er]

/-! ## The tile -/

/-- The tile's entry `(u, p, q)`, from the two loaded blocks. -/
theorem pay_apply (x0 : FVec Ideal S1x1024x256 .bf16) (x1 : FVec Ideal S1x256x1024 .bf16) (u : Fin 1) (p q : Fin 1024) :
    k0_pay1 (F := Ideal) x0 x1 (ix3 u p q)
      = entry (∑ k : Fin 256, x0 (ix3 (0 : Fin 1) p k) * x0 (ix3 (0 : Fin 1) p k))
          (∑ k : Fin 256, x0 (ix3 (0 : Fin 1) p k) * x1 (ix3 (0 : Fin 1) k q))
          (∑ k : Fin 256, x1 (ix3 (0 : Fin 1) k q) * x1 (ix3 (0 : Fin 1) k q)) := by
  unfold k0_pay1
  dsimp only
  rw [shapeCast_ab_1ab_apply]
  simp only [exp_apply, sqrt_apply, subf_apply, addf_apply, mulf_apply, maximumf_apply, minimumf_apply, broadcast_apply]
  rw [rowSq_apply, colSq_apply, mm_apply]
  simp only [shapeCast_1ab_ab_apply]
  unfold entry
  rw [show (FloatOps.ofBits (F := Ideal) .f32 0x00000000#32 : EReal) = 0 from Ideal.ofBits_zero_f32, zero_sub]
  rfl

end Cert.KernelIdeal.Tile

end
-- ==== Proof.Whole.lean ====
/-
  From the tiles to the whole result array of the kernel.

  The grid has 4 x 4 x 4 points `(b, I, J)`. At a point the first window's block is rows `1024 I .. 1024 I + 1023` of
  batch `b` of the first array, the second window's block is columns `1024 J .. 1024 J + 1023` of batch `b` of the
  transposed second array, and the point writes back block `(b, I, J)` of the result. The first array as the region
  finds it is the first argument (a change of float format is the identity at the ideal values); the second is the second
  argument with its last two axes swapped, so its column `q` is the argument's row `q`. Hence what a point writes
  back is its block of the specified function `G` of the two arguments (Tile.lean gives the tile's entries); the 64 blocks
  tile the result, so the array ends holding `G`.
-/
import proofs.«141961_j61667140436151_2_alg».proof.Proof.Gen.KernelIdeal.Value
import proofs.«141961_j61667140436151_2_alg».proof.Proof.Tile
import Idealize.ShloMosaic.Lib.Pipeline.Value
import Idealize.ShloMosaic.Lib.ValueLayout
import Idealize.ShloMosaic.Lib.StableHlo.Run

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.RbfSpec
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## The two staged arrays as the region finds them -/

/-- The first staged array is the first argument: the host only changed its float format. -/
theorem V_rows (c : Dev nD) :
    (V m c main_v0 : S4x4096x256.Idx → EReal) = m ((c : Thread nD τ).loc main_arg0) := by
  dsimp only [Gen.V, Gen.hostOps0]; after_results; rfl

/-- The second staged array is the second argument with its last two axes swapped. -/
theorem V_cols (c : Dev nD) :
    (V m c main_v2 : S4x256x4096.Idx → EReal)
      = transpose S4x256x4096 [0, 2, 1] (m ((c : Thread nD τ).loc main_arg1) : S4x4096x256.Idx → EReal) transposes_S4x4096x256_S4x256x4096_0_2_1 := by
  dsimp only [Gen.V, Gen.hostOps0]; after_results; rfl

/-! ## The index maps over the grid -/

/-- At every point the row window follows the output's batch and row block and stays at depth block 0, the column
    window follows the output's batch and column block, and the output's block indices are below 4. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0
    ∧ win0_1.index t (2 : Fin 3) = win0_2.index t (2 : Fin 3)
    ∧ win0_2.index t (0 : Fin 3) < 4 ∧ win0_2.index t (1 : Fin 3) < 4 ∧ win0_2.index t (2 : Fin 3) < 4 :=
  (by decide +kernel : ∀ t : Fin grid0.N, _)

/-- Every block `(b, I, J)` of the result is some point's. -/
theorem idx_onto : ∀ (q0 q1 q2 : Fin 4), ∃ t : Fin cfg0.N, win0_2.index t = ![q0.val, q1.val, q2.val] :=
  (by decide +kernel : ∀ (q0 q1 q2 : Fin 4), ∃ t : Fin grid0.N, win0_2.index t = ![q0.val, q1.val, q2.val])

/-! ## One tile is a block of `G` -/

/-- A tile computed from blocks that hold rows `(b, n0 + p)` of `A` and, as columns, rows `(b, r0 + q)` of `B`
    holds at `(u, p, q)` the entry `(b, n, r)` of `G A B`, for `n`, `r` the rows that `p`, `q` name. -/
theorem tile_is_G (x0 : FVec Ideal S1x1024x256 .bf16) (x1 : FVec Ideal S1x256x1024 .bf16) (A B : Rows.Idx → EReal)
    (u : Fin 1) (p q : Fin 1024) (b : Fin 4) (n r : Fin 4096)
    (h0 : ∀ k : Fin 256, x0 (ix3 (0 : Fin 1) p k) = A (ix3 b n k))
    (h1 : ∀ k : Fin 256, x1 (ix3 (0 : Fin 1) k q) = B (ix3 b r k)) :
    k0_pay1 (F := Ideal) x0 x1 (ix3 u p q) = G A B (ix3 b n r) := by
  refine (Tile.pay_apply x0 x1 u p q).trans ?_
  rw [G_apply]
  unfold rowSqNorm rowDot
  simp only [h0, h1]

/-! ## What a point writes back -/

/-- Point `t` writes back block `t` of `G` of the two arguments. -/
theorem flushed_eq (c : Dev nD) (t : Fin cfg0.N) :
    (dats m 0 c).flushed 2 t
      = ((cfg0.win 2).blk t).view.read (Elt Ideal) (G (m ((c : Thread nD τ).loc main_arg0)) (m ((c : Thread nD τ).loc main_arg1))) := by
  rw [flushed2]
  unfold out0_2
  rw [View.canon_unit_zero hz]
  simp only [View.ld_unit_zero (S := S1x1024x256) hz, View.ld_unit_zero (S := S1x256x1024) hz]
  obtain ⟨e0, e1, e2, e3, e4, e5, l0, l1, l2⟩ := idx_facts t
  funext j
  have hj0 : (j 0).val < 1 := (j 0).isLt
  have hj1 : (j 1).val < 1024 := (j 1).isLt
  have hj2 : (j 2).val < 1024 := (j 2).isLt
  have ej : j = ix3 (⟨(j 0).val, hj0⟩ : Fin 1) (⟨(j 1).val, hj1⟩ : Fin 1024) (⟨(j 2).val, hj2⟩ : Fin 1024) :=
    funext fun a => Fin.ext (by match a with | ⟨0, _⟩ => rfl | ⟨1, _⟩ => rfl | ⟨2, _⟩ => rfl)
  have hi : ((cfg0.win 2).blk t).view.emb j
      = ix3 (⟨win0_2.index t (0 : Fin 3), l0⟩ : Fin 4) (⟨win0_2.index t (1 : Fin 3) * 1024 + (j 1).val, by omega⟩ : Fin 4096)
          (⟨win0_2.index t (2 : Fin 3) * 1024 + (j 2).val, by omega⟩ : Fin 4096) := by
    funext a; apply Fin.ext
    match a with
    | ⟨0, _⟩ => show win0_2.index t (0 : Fin 3) * 1 + 1 * (j 0).val = win0_2.index t (0 : Fin 3); omega
    | ⟨1, _⟩ => show win0_2.index t (1 : Fin 3) * 1024 + 1 * (j 1).val = win0_2.index t (1 : Fin 3) * 1024 + (j 1).val; omega
    | ⟨2, _⟩ => show win0_2.index t (2 : Fin 3) * 1024 + 1 * (j 2).val = win0_2.index t (2 : Fin 3) * 1024 + (j 2).val; omega
  show k0_pay1 (F := Ideal) (iblk m c 0 t) (iblk m c 1 t) j
      = G (m ((c : Thread nD τ).loc main_arg0)) (m ((c : Thread nD τ).loc main_arg1)) (((cfg0.win 2).blk t).view.emb j)
  refine (congrArg (k0_pay1 (F := Ideal) (iblk m c 0 t) (iblk m c 1 t)) ej).trans ?_
  refine (tile_is_G (iblk m c 0 t) (iblk m c 1 t) (m ((c : Thread nD τ).loc main_arg0)) (m ((c : Thread nD τ).loc main_arg1))
    (⟨(j 0).val, hj0⟩ : Fin 1) (⟨(j 1).val, hj1⟩ : Fin 1024) (⟨(j 2).val, hj2⟩ : Fin 1024)
    (⟨win0_2.index t (0 : Fin 3), l0⟩ : Fin 4) (⟨win0_2.index t (1 : Fin 3) * 1024 + (j 1).val, by omega⟩ : Fin 4096)
    (⟨win0_2.index t (2 : Fin 3) * 1024 + (j 2).val, by omega⟩ : Fin 4096) ?_ ?_).trans
    (congrArg (G (m ((c : Thread nD τ).loc main_arg0)) (m ((c : Thread nD τ).loc main_arg1))) hi.symm)
  · intro k
    show V m c main_v0 (((cfg0.win 0).blk t).view.emb (ix3 (0 : Fin 1) (⟨(j 1).val, hj1⟩ : Fin 1024) k)) = _
    rw [V_rows]
    refine congrArg (m ((c : Thread nD τ).loc main_arg0)) (funext fun a => Fin.ext ?_)
    match a with
    | ⟨0, _⟩ => show win0_0.index t (0 : Fin 3) * 1 + 1 * 0 = win0_2.index t (0 : Fin 3); omega
    | ⟨1, _⟩ => show win0_0.index t (1 : Fin 3) * 1024 + 1 * (j 1).val = win0_2.index t (1 : Fin 3) * 1024 + (j 1).val; omega
    | ⟨2, _⟩ => show win0_0.index t (2 : Fin 3) * 256 + 1 * k.val = k.val; omega
  · intro k
    show V m c main_v2 (((cfg0.win 1).blk t).view.emb (ix3 (0 : Fin 1) k (⟨(j 2).val, hj2⟩ : Fin 1024))) = _
    have e : ((cfg0.win 1).blk t).view.emb (ix3 (0 : Fin 1) k (⟨(j 2).val, hj2⟩ : Fin 1024))
        = (ix3 (⟨win0_2.index t (0 : Fin 3), l0⟩ : Fin 4) k (⟨win0_2.index t (2 : Fin 3) * 1024 + (j 2).val, by omega⟩ : Fin 4096) : S4x256x4096.Idx) := by
      funext a; apply Fin.ext
      match a with
      | ⟨0, _⟩ => show win0_1.index t (0 : Fin 3) * 1 + 1 * 0 = win0_2.index t (0 : Fin 3); omega
      | ⟨1, _⟩ => show win0_1.index t (1 : Fin 3) * 256 + 1 * k.val = k.val; omega
      | ⟨2, _⟩ => show win0_1.index t (2 : Fin 3) * 1024 + 1 * (j 2).val = win0_2.index t (2 : Fin 3) * 1024 + (j 2).val; omega
    rw [e, V_cols]
    exact transpose_ix3_021_apply _ _ _ _ _

/-! ## The blocks tile the result -/

/-- An index of the result is in point `t`'s block iff each coordinate is in the block's range on its axis. -/
theorem mem_blk (t : Fin cfg0.N) (i : S4x4096x4096.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v3).slice (win0_2.rect t)).set ↔ _
  rw [View.set_slice_whole, Rect.mem_set_unit]
  exact Iff.rfl

/-- Every index `(b, n, r)` of the result lies in the block `(b, n / 1024, r / 1024)` of some point. -/
theorem cover (i : S4x4096x4096.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-! ## The array after the run, and the run -/

/-- The result array ends holding `G` of the two arguments. -/
theorem final (c : Dev nD) :
    (dats m 0 c).arrAt 2 cfg0.N = G (m ((c : Thread nD τ).loc main_arg0)) (m ((c : Thread nD τ).loc main_arg1)) :=
  (dats m 0 c).arrAt_eq_of_cover 2 (G (m ((c : Thread nD τ).loc main_arg0)) (m ((c : Thread nD τ).loc main_arg1)))
    (fun t _ => flushed_eq m c t) cover

/-- Every weakly fair execution of the idealized kernel terminates with the result array at `G` of the arguments and the
    arguments unchanged. -/
theorem run : θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefIsSpec.lean ====
/-
  The reference computes the specified function.

  Its last stage, read one operation at a time down to the two argument arrays, is at `(b, n, p)`: the exponential of
  the negated square root of the clamped `(0 + sum_k x_{b,n,k}^2 - 2 * sum_k x_{b,n,k} y_{b,p,k}) + (0 + sum_k y_{b,p,k}^2)`.
  The two sums of squares start from the zero pattern, which denotes the extended real `0`; dropping it is the only
  step that is not an unfolding. The composed index maps of the broadcasts and reductions are the rows `(b, n, k)`
  and `(b, p, k)`.
-/
import proofs.«141961_j61667140436151_2_alg».proof.Proof.Gen.ReferenceIdeal.Read
import proofs.«141961_j61667140436151_2_alg».proof.Proof.Spec

noncomputable section

namespace Cert.ReferenceIdeal.RefSpec

open Cert.ReferenceIdeal Cert.ReferenceIdeal.Read Idealize.ShloMosaic Idealize.ShloMosaic.ValueIdx Cert.RbfSpec

/-- Through the two broadcasts and the reduction of the first squared norm, entry `(b, n, p)` reads row `(b, n)`. -/
theorem idx_na (b : Fin 4) (n p : Fin 4096) (k : Fin 256) :
    idx_main_v1 (idx_main_v2 (idx_main_v9 (ix3 b n p))) k = ix3 b n k :=
  funext fun a => Fin.ext (by match a with | ⟨0, _⟩ => rfl | ⟨1, _⟩ => rfl | ⟨2, _⟩ => rfl)

/-- Through the two broadcasts and the reduction of the second squared norm, entry `(b, n, p)` reads row `(b, p)`. -/
theorem idx_nb (b : Fin 4) (n p : Fin 4096) (k : Fin 256) :
    idx_main_v4 (idx_main_v5 (idx_main_v11 (ix3 b n p))) k = ix3 b p k :=
  funext fun a => Fin.ext (by match a with | ⟨0, _⟩ => rfl | ⟨1, _⟩ => rfl | ⟨2, _⟩ => rfl)

/-- The batched product's left operand at entry `(b, n, p)` and contracted coordinate `k` is `x` at `(b, n, k)`. -/
theorem idx_l (b : Fin 4) (n p : Fin 4096) (k : Fin 256) : lidx_main_v6 (ix3 b n p) k = ix3 b n k :=
  funext fun a => Fin.ext (by match a with | ⟨0, _⟩ => rfl | ⟨1, _⟩ => rfl | ⟨2, _⟩ => rfl)

/-- Its right operand there is `y` at `(b, p, k)`. -/
theorem idx_r (b : Fin 4) (n p : Fin 4096) (k : Fin 256) : ridx_main_v6 (ix3 b n p) k = ix3 b p k :=
  funext fun a => Fin.ext (by match a with | ⟨0, _⟩ => rfl | ⟨1, _⟩ => rfl | ⟨2, _⟩ => rfl)

/-- The reference's result, as a function of its two arguments, is `G`. -/
theorem val_eq_G (x y : (⟨S4x4096x256, .f32⟩ : BufTy).Contents (Elt Ideal)) :
    val_main_v16 (F := Ideal) x y = G x y := by
  funext i
  obtain ⟨b, n, p, rfl⟩ : ∃ (b : Fin 4) (n p : Fin 4096), i = ix3 b n p := ⟨i 0, i 1, i 2, eq_ix3 i⟩
  rw [G_apply]
  unfold entry rowSqNorm rowDot
  simp only [val_main_v16_apply, val_main_v15_apply, val_main_v14_apply, val_main_v13_apply, val_main_call0_v4_apply,
    val_main_call0_v3_apply, val_main_cst_3_apply, val_main_call0_v2_apply, val_main_call0_v1_apply, val_main_call0_v0_apply,
    val_main_cst_2_apply, val_main_v12_apply, val_main_v10_apply, val_main_v9_apply, val_main_v2_apply, val_main_v1_apply,
    val_main_cst_apply, val_main_v0_apply, val_main_v8_apply, val_main_v7_apply, val_main_cst_1_apply, val_main_v6_apply,
    val_main_v11_apply, val_main_v5_apply, val_main_v4_apply, val_main_cst_0_apply, val_main_v3_apply,
    idx_na, idx_nb, idx_l, idx_r]
  simp only [Ideal.hostUnary_exp_def, Ideal.hostNegf_def, Ideal.negf_def, Ideal.hostUnary_sqrt_def, Ideal.minimumf_def,
    Ideal.maximumf_def, Ideal.addf_def, Ideal.subf_def, Ideal.mulf_def, Ideal.ofBits_def, Ideal.ofBits_zero_f32, zero_add]

end Cert.ReferenceIdeal.RefSpec

end
-- ==== Proof.lean ====
/-
  A Gaussian-type kernel of pairwise distances: for two stacks `x, y` of 4 x 4096 row vectors of length 256 the result
  at `(b, n, p)` is `exp (-sqrt (clamp (|x_{b,n}|^2 - 2 <x_{b,n}, y_{b,p}> + |y_{b,p}|^2)))`, the clamp between two
  fixed bounds.

  The kernel casts both arrays to a 16-bit float format, transposes the second, and computes the result in 64 tiles of
  1024 x 1024: per tile one matrix product of 1024 rows of `x` with 1024 columns of the transposed `y`, the rows'
  and the columns' sums of squares recomputed from the loaded blocks, then the pointwise tail. The reference computes
  the two sums of squares and one batched product over the whole arrays and applies the same tail. On the extended
  reals a change of float format is the identity, a product into a zero accumulator and the host's product are the same
  sum of 256 products, a lane sum and the host's sum are the same sum of 256 squares, and the tail is the same expression
  with the same three constants (the kernel writes the negation as `0 - d`). So both programs end with the one function
  `G` of Spec.lean: the kernel tile by tile (Tile.lean, Whole.lean), the reference stage by stage (RefIsSpec.lean). No
  step uses that the inputs are finite: nothing is distributed, cancelled or moved across a sum.

  The three frames are the generated ones (the reference's is its generated run with the result dropped); the kernel's
  idealization rewrote nothing, so there is nothing to preserve.
-/
import proofs.«141961_j61667140436151_2_alg».proof.Defs
import proofs.«141961_j61667140436151_2_alg».proof.Proof.Gen.Kernel
import proofs.«141961_j61667140436151_2_alg».proof.Proof.Gen.Kernel.Skeleton
import proofs.«141961_j61667140436151_2_alg».proof.Proof.Gen.Kernel.Launch
import proofs.«141961_j61667140436151_2_alg».proof.Proof.Gen.Kernel.Points
import proofs.«141961_j61667140436151_2_alg».proof.Proof.Gen.Kernel.Frame
import proofs.«141961_j61667140436151_2_alg».proof.Proof.Gen.KernelIdeal
import proofs.«141961_j61667140436151_2_alg».proof.Proof.Gen.KernelIdeal.Skeleton
import proofs.«141961_j61667140436151_2_alg».proof.Proof.Gen.KernelIdeal.Launch
import proofs.«141961_j61667140436151_2_alg».proof.Proof.Gen.KernelIdeal.Points
import proofs.«141961_j61667140436151_2_alg».proof.Proof.Gen.KernelIdeal.Frame
import proofs.«141961_j61667140436151_2_alg».proof.Proof.Gen.ReferenceIdeal
import proofs.«141961_j61667140436151_2_alg».proof.Proof.Gen.Pre_finite_inputs
import proofs.«141961_j61667140436151_2_alg».proof.Proof.Gen.KernelIdeal.Value
import proofs.«141961_j61667140436151_2_alg».proof.Proof.Gen.ReferenceIdeal.Run
import proofs.«141961_j61667140436151_2_alg».proof.Proof.Gen.ReferenceIdeal.Read
import proofs.«141961_j61667140436151_2_alg».proof.Proof.Whole
import proofs.«141961_j61667140436151_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both programs end with the result array at `G` of the arguments:
    the kernel by its tiles, the reference by its stages. -/
theorem algebraic : Cert.algebraic_KernelIdeal_ReferenceIdeal := by
  intro m ρ m' ρ' _ hagree
  refine ⟨fun c => Cert.RbfSpec.G (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefSpec.val_eq_G, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
